-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "recip_div" .f32 0x3D13CD3A#32 ((524288 / 14529495 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x2048x64 : Shape := ⟨4, ![4, 12, 2048, 64]⟩
abbrev S4x2048x12x64 : Shape := ⟨4, ![4, 2048, 12, 64]⟩
abbrev S_ : Shape := ⟨0, ![]⟩

class Facts : Prop where
  bcast_S_S4x12x2048x64 : S_.BroadcastsInDim S4x12x2048x64 (![] : Fin 0 → Fin S4x12x2048x64.rank)
  reducesTo_S4x12x2048x64_S_d0_1_2_3 : S4x12x2048x64.ReducesTo [0, 1, 2, 3] S_
  h_S_ : 0 < S_.numel
  bcast_S_S4x2048x12x64 : S_.BroadcastsInDim S4x2048x12x64 (![] : Fin 0 → Fin S4x2048x12x64.rank)
  reducesTo_S4x2048x12x64_S_d0_1_2_3 : S4x2048x12x64.ReducesTo [0, 1, 2, 3] S_

variable [Facts]

def fn {F : FTy → Type} [FloatOps F] (main_arg0 : FVec F S4x12x2048x64 .f32) (main_arg1 : FVec F S4x12x2048x64 .f32) (main_arg2 : FVec F S4x2048x12x64 .f32) : IVec S_ 1 :=
  let main_v0 : FVec F S4x12x2048x64 .f32 := Host.absf main_arg0
  let main_cst : FVec F S_ .f32 := constant S_ .f32 0x7F800000#32
  let main_v1 : FVec F S4x12x2048x64 .f32 := broadcastInDim S4x12x2048x64 ![] bcast_S_S4x12x2048x64 main_cst
  let main_v2 : IVec S4x12x2048x64 1 := cmpf .olt main_v0 main_v1
  let main_c : IVec S_ 1 := constantI S_ 1 1#1
  let main_v3 : IVec S_ 1 := (fun x v => Host.reduce IntOp.andi x v reducesTo_S4x12x2048x64_S_d0_1_2_3 h_S_) main_v2 main_c
  let main_v4 : FVec F S4x12x2048x64 .f32 := Host.absf main_arg1
  let main_cst_0 : FVec F S_ .f32 := constant S_ .f32 0x7F800000#32
  let main_v5 : FVec F S4x12x2048x64 .f32 := broadcastInDim S4x12x2048x64 ![] bcast_S_S4x12x2048x64 main_cst_0
  let main_v6 : IVec S4x12x2048x64 1 := cmpf .olt main_v4 main_v5
  let main_c_1 : IVec S_ 1 := constantI S_ 1 1#1
  let main_v7 : IVec S_ 1 := (fun x v => Host.reduce IntOp.andi x v reducesTo_S4x12x2048x64_S_d0_1_2_3 h_S_) main_v6 main_c_1
  let main_v8 : IVec S_ 1 := andi main_v3 main_v7
  let main_v9 : FVec F S4x2048x12x64 .f32 := Host.absf main_arg2
  let main_cst_2 : FVec F S_ .f32 := constant S_ .f32 0x7F800000#32
  let main_v10 : FVec F S4x2048x12x64 .f32 := broadcastInDim S4x2048x12x64 ![] bcast_S_S4x2048x12x64 main_cst_2
  let main_v11 : IVec S4x2048x12x64 1 := cmpf .olt main_v9 main_v10
  let main_c_3 : IVec S_ 1 := constantI S_ 1 1#1
  let main_v12 : IVec S_ 1 := (fun x v => Host.reduce IntOp.andi x v reducesTo_S4x2048x12x64_S_d0_1_2_3 h_S_) main_v11 main_c_3
  let main_v13 : IVec S_ 1 := andi main_v8 main_v12
  main_v13
-- ==== Kernel.lean ====
abbrev S4x12x2048x64 : Shape := ⟨4, ![4, 12, 2048, 64]⟩
abbrev S4x2048x12x64 : Shape := ⟨4, ![4, 2048, 12, 64]⟩
abbrev S48x2048x64 : Shape := ⟨3, ![48, 2048, 64]⟩
abbrev S1x512x64 : Shape := ⟨3, ![1, 512, 64]⟩
abbrev S1x2048x64 : Shape := ⟨3, ![1, 2048, 64]⟩
abbrev S1x512x2048 : Shape := ⟨3, ![1, 512, 2048]⟩
abbrev S1x512 : Shape := ⟨2, ![1, 512]⟩
abbrev S1x512x1 : Shape := ⟨3, ![1, 512, 1]⟩

abbrev nBuf : Space → Nat
  | .hbm => 12
  | .vmem => 8
  | .smem => 0
  | _ => 0

abbrev bufTy : (tb : Table) → Fin (tcTables nBuf tb) → BufTy
  | .hbm, ⟨0, _⟩ => ⟨S4x12x2048x64, .f32⟩
  | .hbm, ⟨1, _⟩ => ⟨S4x12x2048x64, .f32⟩
  | .hbm, ⟨2, _⟩ => ⟨S4x2048x12x64, .f32⟩
  | .hbm, ⟨3, _⟩ => ⟨S48x2048x64, .f32⟩
  | .hbm, ⟨4, _⟩ => ⟨S48x2048x64, .bf16⟩
  | .hbm, ⟨5, _⟩ => ⟨S48x2048x64, .f32⟩
  | .hbm, ⟨6, _⟩ => ⟨S48x2048x64, .bf16⟩
  | .hbm, ⟨7, _⟩ => ⟨S4x12x2048x64, .f32⟩
  | .hbm, ⟨8, _⟩ => ⟨S48x2048x64, .f32⟩
  | .hbm, ⟨9, _⟩ => ⟨S48x2048x64, .bf16⟩
  | .hbm, ⟨10, _⟩ => ⟨S48x2048x64, .f32⟩
  | .hbm, ⟨11, _⟩ => ⟨S4x12x2048x64, .f32⟩
  | .local _ .vmem, ⟨0, _⟩ => ⟨S1x512x64, .bf16⟩
  | .local _ .vmem, ⟨1, _⟩ => ⟨S1x512x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x512x64, .f32⟩
  | .local _ .vmem, ⟨7, _⟩ => ⟨S1x512x64, .f32⟩
  | _, _ => ⟨S4x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![48, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x12x2048x64_S48x2048x64 : S4x12x2048x64.ShapeCasts S48x2048x64
  bitsLt_bf16_f32 : FTy.bits .bf16 < FTy.bits .f32
  transposes_S4x2048x12x64_S4x12x2048x64_0_2_1_3 : S4x2048x12x64.Transposes [0, 2, 1, 3] S4x12x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S1x512x64 : S1x512x64.ShapeCasts S1x512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S1x2048x64 : S1x2048x64.ShapeCasts S1x2048x64
  reduces_S1x512x2048_S1x512 : S1x512x2048.Reduces [2] S1x512
  shapeCasts_S1x512_S1x512x1 : S1x512.ShapeCasts S1x512x1
  broadcasts_S1x512x1_S1x512x2048 : S1x512x1.Broadcasts S1x512x2048
  broadcasts_S1x512x1_S1x512x64 : S1x512x1.Broadcasts S1x512x64
  shapeCasts_S48x2048x64_S4x12x2048x64 : S48x2048x64.ShapeCasts S4x12x2048x64
  dot_S1x512x64_S1x2048x64_S1x512x2048_2_2_1_1_0_0_wf : DotDims.WF S1x512x64 S1x2048x64 S1x512x2048 [2] [2] [1] [1] [0] [0]
  dot_S1x512x2048_S1x2048x64_S1x512x64_2_1_1_2_0_0_wf : DotDims.WF S1x512x2048 S1x2048x64 S1x512x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S48x2048x64.size a
  hwx0_0 : ∀ i : grid0.Coords, EltTy.bits .bf16 = 32 ∨ (Rect.block (s := S48x2048x64) S1x512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S48x2048x64.size a
  hwx0_1 : ∀ i : grid0.Coords, EltTy.bits .bf16 = 32 ∨ (Rect.block (s := S48x2048x64) S1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S48x2048x64.size a
  hwx0_2 : ∀ i : grid0.Coords, EltTy.bits .bf16 = 32 ∨ (Rect.block (s := S48x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S48x2048x64.size a
  hwx0_3 : ∀ i : grid0.Coords, EltTy.bits .f32 = 32 ∨ (Rect.block (s := S48x2048x64) S1x512x64.size (cc0_transform_3 i) (hinb0_3 i)).WholeWords (EltTy.packing .f32)

variable [Facts₀]

def dot_S1x512x64_S1x2048x64_S1x512x2048_2_2_1_1_0_0 : DotDims S1x512x64 S1x2048x64 S1x512x2048 where
  lhsContracting := [2]
  rhsContracting := [2]
  lhsNonContracting := [1]
  rhsNonContracting := [1]
  lhsBatch := [0]
  rhsBatch := [0]
  wf := dot_S1x512x64_S1x2048x64_S1x512x2048_2_2_1_1_0_0_wf
def dot_S1x512x2048_S1x2048x64_S1x512x64_2_1_1_2_0_0 : DotDims S1x512x2048 S1x2048x64 S1x512x64 where
  lhsContracting := [2]
  rhsContracting := [1]
  lhsNonContracting := [1]
  rhsNonContracting := [2]
  lhsBatch := [0]
  rhsBatch := [0]
  wf := dot_S1x512x2048_S1x2048x64_S1x512x64_2_1_1_2_0_0_wf

abbrev win0_0 : Pipeline.Window sig grid0 :=
  Pipeline.Window.ofSpec (Memref.whole main_v1) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x12x2048x64 : Shape := ⟨4, ![4, 12, 2048, 64]⟩
abbrev S4x2048x12x64 : Shape := ⟨4, ![4, 2048, 12, 64]⟩
abbrev S4x12x2048x2048 : Shape := ⟨4, ![4, 12, 2048, 2048]⟩
abbrev S_ : Shape := ⟨0, ![]⟩
abbrev S4x12x2048 : Shape := ⟨3, ![4, 12, 2048]⟩
abbrev S4x12x2048x1 : Shape := ⟨4, ![4, 12, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S4x12x2048x64, .f32⟩
  | .hbm, ⟨1, _⟩ => ⟨S4x12x2048x64, .f32⟩
  | .hbm, ⟨2, _⟩ => ⟨S4x2048x12x64, .f32⟩
  | .hbm, ⟨3, _⟩ => ⟨S4x12x2048x2048, .f32⟩
  | .hbm, ⟨4, _⟩ => ⟨S_, .f32⟩
  | .hbm, ⟨5, _⟩ => ⟨S4x12x2048x2048, .f32⟩
  | .hbm, ⟨6, _⟩ => ⟨S4x12x2048x2048, .f32⟩
  | .hbm, ⟨7, _⟩ => ⟨S_, .f32⟩
  | .hbm, ⟨8, _⟩ => ⟨S4x12x2048, .f32⟩
  | .hbm, ⟨9, _⟩ => ⟨S_, .f32⟩
  | .hbm, ⟨10, _⟩ => ⟨S4x12x2048, .f32⟩
  | .hbm, ⟨11, _⟩ => ⟨S4x12x2048, .f32⟩
  | .hbm, ⟨12, _⟩ => ⟨S4x12x2048x1, .f32⟩
  | .hbm, ⟨13, _⟩ => ⟨S4x12x2048x2048, .f32⟩
  | .hbm, ⟨14, _⟩ => ⟨S4x12x2048x2048, .f32⟩
  | .hbm, ⟨15, _⟩ => ⟨S4x12x2048x2048, .f32⟩
  | .hbm, ⟨16, _⟩ => ⟨S_, .f32⟩
  | .hbm, ⟨17, _⟩ => ⟨S4x12x2048, .f32⟩
  | .hbm, ⟨18, _⟩ => ⟨S4x12x2048x1, .f32⟩
  | .hbm, ⟨19, _⟩ => ⟨S4x12x2048x2048, .f32⟩
  | .hbm, ⟨20, _⟩ => ⟨S4x12x2048x2048, .f32⟩
  | .hbm, ⟨21, _⟩ => ⟨S4x12x2048x64, .f32⟩
  | .hbm, ⟨22, _⟩ => ⟨S4x12x2048x64, .f32⟩
  | _, _ => ⟨S4x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S4x12x2048x2048 : S_.BroadcastsInDim S4x12x2048x2048 (![] : Fin 0 → Fin S4x12x2048x2048.rank)
  reducesTo_S4x12x2048x2048_S4x12x2048_d3 : S4x12x2048x2048.ReducesTo [3] S4x12x2048
  h_S_ : 0 < S_.numel
  bcast_S_S4x12x2048 : S_.BroadcastsInDim S4x12x2048 (![] : Fin 0 → Fin S4x12x2048.rank)
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  transposes_S4x2048x12x64_S4x12x2048x64_0_2_1_3 : S4x2048x12x64.Transposes [0, 2, 1, 3] S4x12x2048x64
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]

variable [Facts₀]

def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf

class Facts : Prop extends Facts₀ where

variable [Facts]
-- ==== Proof.RowLaw.lean ====
/-
  One row of softmax attention on the extended reals, over an abstract key axis `Fin n`.

  A row has scores `s k`, a maximum `M` (the fold of `max` from −∞), weights `e k = exp (s k − M)`,
  a normaliser `L = ∑ e` and values `v k`. Two arrangements of the same row are compared:
    normalise LAST :  (∑ k, e k · v k) / L
    normalise FIRST:   ∑ k, (e k / L) · v k
  They agree whenever the scores are real numbers and the row is not empty: then the maximum is one of the
  scores, so one weight is `exp 0 = 1` and every weight is a non-negative real, so `L` is a real number ≥ 1; its
  inverse is a non-negative real, and multiplication by a non-negative real distributes over ANY sum of extended
  reals. Nothing is asked of the values `v`: they may be infinite.
-/
import Idealize.ShloMosaic.PureOps.Ideal

noncomputable section

namespace Cert.Attn

open Idealize.ShloMosaic

/-- A finite sum of real numbers, taken in the extended reals, is the real sum. -/
theorem sum_coe {ι : Type} (S : Finset ι) (f : ι → ℝ) :
    ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- Multiplication by a non-negative real distributes over any finite sum of extended reals. -/
theorem sum_mul_coe {ι : Type} (S : Finset ι) (f : ι → EReal) (r : ℝ) (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha,
      EReal.right_distrib_of_nonneg_of_ne_top (EReal.coe_nonneg.mpr hr) (EReal.coe_ne_top r), ih]

/-- The maximum of a non-empty row of real scores, folded from −∞, is one of the scores. -/
theorem rowMax_attained {n : ℕ} (hn : 0 < n) (σ : Fin n → ℝ) :
    ∃ kmax : Fin n, (Finset.univ : Finset (Fin n)).fold max (⊥ : EReal) (fun k => ((σ k : ℝ) : EReal)) = ((σ kmax : ℝ) : EReal) := by
  obtain ⟨kmax, -, hmax⟩ := Finset.exists_max_image (Finset.univ : Finset (Fin n)) σ ⟨⟨0, hn⟩, Finset.mem_univ _⟩
  refine ⟨kmax, le_antisymm ?_ ?_⟩
  · exact (Finset.fold_max_le _).2 ⟨bot_le, fun k hk => EReal.coe_le_coe_iff.mpr (hmax k hk)⟩
  · exact (Finset.le_fold_max _).2 (Or.inr ⟨kmax, Finset.mem_univ _, le_rfl⟩)

/-- THE ROW LAW. For real scores on a non-empty key axis, normalising the weighted sum of the values by the
    row's normaliser equals weighting the values by the normalised weights — whatever the values are. -/
theorem row_law {n : ℕ} (hn : 0 < n) (σ : Fin n → ℝ) (v : Fin n → EReal) :
    Ideal.div (∑ k, Ideal.exp (((σ k : ℝ) : EReal) - (Finset.univ : Finset (Fin n)).fold max (⊥ : EReal) (fun k => ((σ k : ℝ) : EReal))) * v k)
        (∑ k, Ideal.exp (((σ k : ℝ) : EReal) - (Finset.univ : Finset (Fin n)).fold max (⊥ : EReal) (fun k => ((σ k : ℝ) : EReal))))
      = ∑ k, Ideal.div (Ideal.exp (((σ k : ℝ) : EReal) - (Finset.univ : Finset (Fin n)).fold max (⊥ : EReal) (fun k => ((σ k : ℝ) : EReal))))
          (∑ k', Ideal.exp (((σ k' : ℝ) : EReal) - (Finset.univ : Finset (Fin n)).fold max (⊥ : EReal) (fun k => ((σ k : ℝ) : EReal)))) * v k := by
  obtain ⟨kmax, hM⟩ := rowMax_attained hn σ
  rw [hM]
  -- every weight is the real number exp (σ k − σ kmax)
  have he : ∀ k, Ideal.exp (((σ k : ℝ) : EReal) - ((σ kmax : ℝ) : EReal)) = ((Real.exp (σ k - σ kmax) : ℝ) : EReal) := fun k => by
    rw [← EReal.coe_sub]; rfl
  simp only [he]
  -- the normaliser is the real number ℓ = ∑ exp (σ k − σ kmax), which is positive
  rw [sum_coe]
  have hpos : 0 < ∑ k, Real.exp (σ k - σ kmax) :=
    Finset.sum_pos (fun k _ => Real.exp_pos _) ⟨kmax, Finset.mem_univ _⟩
  have hne : (∑ k, Real.exp (σ k - σ kmax)) ≠ 0 := hpos.ne'
  simp only [Ideal.div_coe hne]
  rw [sum_mul_coe _ _ _ (by positivity)]
  refine Finset.sum_congr rfl fun k _ => ?_
  rw [mul_assoc, mul_comm (v k), ← mul_assoc]

end Cert.Attn

end
-- ==== Proof.Row.lean ====
/-
  One attention row as each program spells it, and the bridge between the two spellings.

  Both programs form, for a query row, the scores against every key, the row maximum folded from the pattern of −∞,
  the weights `exp (score − maximum)` and their sum. They differ in two places only.
  (1) The scale. One multiplies the raw score `x` by the constant `c = 524288/14529495`; the other divides `x` by the
      f32 number `D = 14529495/524288`. Since `c = 1/D` exactly, `x · c = x / D` on every extended real.
  (2) The place of the normalisation. One divides the weighted sum of the values by the normaliser; the other divides
      each weight first. For real scores that is the row law of the module imported here.
  The remaining differences are spelling: a `max` against −∞ around the folded maximum, and a zero added to the
  normaliser.
-/
import proofs.«132813_j51436528337629_2_alg».proof.Proof.RowLaw
import Idealize.ShloMosaic.PureOps.Ideal.Laws

noncomputable section

namespace Cert.Attn

open Idealize.ShloMosaic

/-- The scale the scores are multiplied by: the exact reciprocal of the divisor `14529495/524288`. -/
def scale : EReal := ((524288 / 14529495 : ℝ) : EReal)

/-- The pattern of −∞ is the bottom of the extended reals. -/
theorem ofBits_neg_inf : Ideal.ofBits .f32 0xFF800000#32 = ⊥ := by simp [Ideal.ofBits, Ideal.ieee]

/-- The divisor's pattern denotes the dyadic rational `14529495 / 2^19`. -/
theorem ofBits_divisor : Ideal.ofBits .f32 0x41DDB3D7#32 = ((14529495 / 524288 : ℝ) : EReal) := by
  simp [Ideal.ofBits, Ideal.ieee, -EReal.coe_mul]; norm_num

/-- A row normalised LAST: the weighted sum of the values, divided by the sum of the weights. -/
def rowLast {n : ℕ} (s v : Fin n → EReal) : EReal :=
  Ideal.div (∑ k, Ideal.exp (s k - (Finset.univ : Finset (Fin n)).fold max (Ideal.ofBits .f32 0xFF800000#32) s) * v k)
    (∑ k, Ideal.exp (s k - (Finset.univ : Finset (Fin n)).fold max (Ideal.ofBits .f32 0xFF800000#32) s))

/-- A row normalised FIRST: each weight divided by the sum of the weights, then the weighted sum of the values. -/
def rowFirst {n : ℕ} (s v : Fin n → EReal) : EReal :=
  ∑ k, Ideal.div
      (Ideal.exp (s k - max (Ideal.ofBits .f32 0xFF800000#32) ((Finset.univ : Finset (Fin n)).fold max (Ideal.ofBits .f32 0xFF800000#32) s)))
      (Ideal.ofBits .f32 0x00000000#32 + ∑ k', Ideal.exp (s k' - max (Ideal.ofBits .f32 0xFF800000#32) ((Finset.univ : Finset (Fin n)).fold max (Ideal.ofBits .f32 0xFF800000#32) s)))
    * v k

/-- THE BRIDGE for one row: raw real scores `x`, scaled by `c` and normalised last, against the same scores divided by
    `D` and normalised first. The values are arbitrary extended reals. -/
theorem row_bridge {n : ℕ} (hn : 0 < n) (x : Fin n → ℝ) (v : Fin n → EReal) :
    rowLast (fun k => ((x k : ℝ) : EReal) * scale) v
      = rowFirst (fun k => Ideal.div ((x k : ℝ) : EReal) (Ideal.ofBits .f32 0x41DDB3D7#32)) v := by
  have hs : (fun k => Ideal.div ((x k : ℝ) : EReal) (Ideal.ofBits .f32 0x41DDB3D7#32))
      = fun k => (((x k * (524288 / 14529495)) : ℝ) : EReal) := funext fun k => by
    rw [ofBits_divisor, Ideal.div_coe (by norm_num), ← EReal.coe_mul]
    congr 1; norm_num
  have hs' : (fun k => ((x k : ℝ) : EReal) * scale) = fun k => (((x k * (524288 / 14529495)) : ℝ) : EReal) := funext fun k => by
    unfold scale; rw [← EReal.coe_mul]
  unfold rowLast rowFirst
  rw [hs, hs', ofBits_neg_inf, Ideal.ofBits_zero_f32]
  simp only [max_bot_left, zero_add]
  exact row_law hn (fun k => x k * (524288 / 14529495)) v

/-- A finite sum of products of real numbers, taken in the extended reals, is the real sum of products. -/
theorem sum_mul_coe_coe {ι : Type} [Fintype ι] (f g : ι → ℝ) :
    ∑ i, ((f i : ℝ) : EReal) * ((g i : ℝ) : EReal) = ((∑ i, f i * g i : ℝ) : EReal) := by
  simp only [← EReal.coe_mul]; exact sum_coe _ _

end Cert.Attn

end
-- ==== Proof.KernelRow.lean ====
/-
  The kernel body's stored value, read at one element.

  For a block of 512 query rows `a`, the 2048 key rows `b` and the 2048 value rows `v` of one (batch, head), the body
  stores at (row r, column d) the attention row normalised last: scores `(∑ d', a[r, d'] · b[k, d']) · scale`, weights
  `exp (score − row maximum)`, and `(∑ k, weight k · v[k, d]) / ∑ k, weight k`. Each operation that is not pointwise —
  the two matrix products, the row maximum, the row sum, the casts and broadcasts of the column of row statistics —
  is read at explicit coordinates by a lemma of its own; the changes of float format are the identity.
-/
import proofs.«132813_j51436528337629_2_alg».proof.Proof.Gen.KernelIdeal.Skeleton
import proofs.«132813_j51436528337629_2_alg».proof.Proof.Row
import Idealize.ShloMosaic.Lib.ValueIdx
import Idealize.ShloMosaic.Lib.Pipeline.Value
import Idealize.ShloMosaic.PureOps.Ideal.Laws

set_option maxRecDepth 16384

noncomputable section

namespace Cert.Attn.Body

open Idealize.ShloMosaic Idealize.ShloMosaic.ValueIdx Cert.KernelIdeal Cert.Attn

variable [Cert.KernelIdeal.Facts]
open Cert.KernelIdeal.Facts₀ Cert.KernelIdeal.Facts

/-! The operand indices of the two matrix products, coordinate by coordinate. -/

theorem qk_l0 (i : S1x512x2048.Idx) (q : dot_S1x512x64_S1x2048x64_S1x512x2048_2_2_1_1_0_0.contr.Idx) :
    (dot_S1x512x64_S1x2048x64_S1x512x2048_2_2_1_1_0_0.lhsIdx i q 0).val = (i 0).val := by
  unfold DotDims.lhsIdx
  rw [dif_pos (show (0 : Fin S1x512x64.rank) ∈ dot_S1x512x64_S1x2048x64_S1x512x2048_2_2_1_1_0_0.lhsBatch by decide)]
  rfl
theorem qk_l1 (i : S1x512x2048.Idx) (q : dot_S1x512x64_S1x2048x64_S1x512x2048_2_2_1_1_0_0.contr.Idx) :
    (dot_S1x512x64_S1x2048x64_S1x512x2048_2_2_1_1_0_0.lhsIdx i q 1).val = (i 1).val := by
  unfold DotDims.lhsIdx
  rw [dif_neg (show ¬(1 : Fin S1x512x64.rank) ∈ dot_S1x512x64_S1x2048x64_S1x512x2048_2_2_1_1_0_0.lhsBatch by decide), dif_pos (show (1 : Fin S1x512x64.rank) ∈ dot_S1x512x64_S1x2048x64_S1x512x2048_2_2_1_1_0_0.lhsNonContracting by decide)]
  rfl
theorem qk_l2 (i : S1x512x2048.Idx) (q : dot_S1x512x64_S1x2048x64_S1x512x2048_2_2_1_1_0_0.contr.Idx) :
    (dot_S1x512x64_S1x2048x64_S1x512x2048_2_2_1_1_0_0.lhsIdx i q 2).val = (q ⟨0, by decide⟩).val :=
  dot_S1x512x64_S1x2048x64_S1x512x2048_2_2_1_1_0_0.lhsIdx_val_of_single rfl i q
theorem qk_r0 (i : S1x512x2048.Idx) (q : dot_S1x512x64_S1x2048x64_S1x512x2048_2_2_1_1_0_0.contr.Idx) :
    (dot_S1x512x64_S1x2048x64_S1x512x2048_2_2_1_1_0_0.rhsIdx i q 0).val = (i 0).val := by
  unfold DotDims.rhsIdx
  rw [dif_pos (show (0 : Fin S1x2048x64.rank) ∈ dot_S1x512x64_S1x2048x64_S1x512x2048_2_2_1_1_0_0.rhsBatch by decide)]
  rfl
theorem qk_r1 (i : S1x512x2048.Idx) (q : dot_S1x512x64_S1x2048x64_S1x512x2048_2_2_1_1_0_0.contr.Idx) :
    (dot_S1x512x64_S1x2048x64_S1x512x2048_2_2_1_1_0_0.rhsIdx i q 1).val = (i 2).val := by
  unfold DotDims.rhsIdx
  rw [dif_neg (show ¬(1 : Fin S1x2048x64.rank) ∈ dot_S1x512x64_S1x2048x64_S1x512x2048_2_2_1_1_0_0.rhsBatch by decide), dif_pos (show (1 : Fin S1x2048x64.rank) ∈ dot_S1x512x64_S1x2048x64_S1x512x2048_2_2_1_1_0_0.rhsNonContracting by decide)]
  rfl
theorem qk_r2 (i : S1x512x2048.Idx) (q : dot_S1x512x64_S1x2048x64_S1x512x2048_2_2_1_1_0_0.contr.Idx) :
    (dot_S1x512x64_S1x2048x64_S1x512x2048_2_2_1_1_0_0.rhsIdx i q 2).val = (q ⟨0, by decide⟩).val :=
  dot_S1x512x64_S1x2048x64_S1x512x2048_2_2_1_1_0_0.rhsIdx_val_of_single rfl i q

theorem pv_l0 (i : S1x512x64.Idx) (q : dot_S1x512x2048_S1x2048x64_S1x512x64_2_1_1_2_0_0.contr.Idx) :
    (dot_S1x512x2048_S1x2048x64_S1x512x64_2_1_1_2_0_0.lhsIdx i q 0).val = (i 0).val := by
  unfold DotDims.lhsIdx
  rw [dif_pos (show (0 : Fin S1x512x2048.rank) ∈ dot_S1x512x2048_S1x2048x64_S1x512x64_2_1_1_2_0_0.lhsBatch by decide)]
  rfl
theorem pv_l1 (i : S1x512x64.Idx) (q : dot_S1x512x2048_S1x2048x64_S1x512x64_2_1_1_2_0_0.contr.Idx) :
    (dot_S1x512x2048_S1x2048x64_S1x512x64_2_1_1_2_0_0.lhsIdx i q 1).val = (i 1).val := by
  unfold DotDims.lhsIdx
  rw [dif_neg (show ¬(1 : Fin S1x512x2048.rank) ∈ dot_S1x512x2048_S1x2048x64_S1x512x64_2_1_1_2_0_0.lhsBatch by decide), dif_pos (show (1 : Fin S1x512x2048.rank) ∈ dot_S1x512x2048_S1x2048x64_S1x512x64_2_1_1_2_0_0.lhsNonContracting by decide)]
  rfl
theorem pv_l2 (i : S1x512x64.Idx) (q : dot_S1x512x2048_S1x2048x64_S1x512x64_2_1_1_2_0_0.contr.Idx) :
    (dot_S1x512x2048_S1x2048x64_S1x512x64_2_1_1_2_0_0.lhsIdx i q 2).val = (q ⟨0, by decide⟩).val :=
  dot_S1x512x2048_S1x2048x64_S1x512x64_2_1_1_2_0_0.lhsIdx_val_of_single rfl i q
theorem pv_r0 (i : S1x512x64.Idx) (q : dot_S1x512x2048_S1x2048x64_S1x512x64_2_1_1_2_0_0.contr.Idx) :
    (dot_S1x512x2048_S1x2048x64_S1x512x64_2_1_1_2_0_0.rhsIdx i q 0).val = (i 0).val := by
  unfold DotDims.rhsIdx
  rw [dif_pos (show (0 : Fin S1x2048x64.rank) ∈ dot_S1x512x2048_S1x2048x64_S1x512x64_2_1_1_2_0_0.rhsBatch by decide)]
  rfl
theorem pv_r1 (i : S1x512x64.Idx) (q : dot_S1x512x2048_S1x2048x64_S1x512x64_2_1_1_2_0_0.contr.Idx) :
    (dot_S1x512x2048_S1x2048x64_S1x512x64_2_1_1_2_0_0.rhsIdx i q 1).val = (q ⟨0, by decide⟩).val :=
  dot_S1x512x2048_S1x2048x64_S1x512x64_2_1_1_2_0_0.rhsIdx_val_of_single rfl i q
theorem pv_r2 (i : S1x512x64.Idx) (q : dot_S1x512x2048_S1x2048x64_S1x512x64_2_1_1_2_0_0.contr.Idx) :
    (dot_S1x512x2048_S1x2048x64_S1x512x64_2_1_1_2_0_0.rhsIdx i q 2).val = (i 2).val := by
  unfold DotDims.rhsIdx
  rw [dif_neg (show ¬(2 : Fin S1x2048x64.rank) ∈ dot_S1x512x2048_S1x2048x64_S1x512x64_2_1_1_2_0_0.rhsBatch by decide), dif_pos (show (2 : Fin S1x2048x64.rank) ∈ dot_S1x512x2048_S1x2048x64_S1x512x64_2_1_1_2_0_0.rhsNonContracting by decide)]
  rfl

/-- Scores: the product of the query block with the key block, contracted over the 64 features, into a zero
    accumulator, is the sum over the features. -/
theorem scores_apply (a : FVec Ideal S1x512x64 .bf16) (b : FVec Ideal S1x2048x64 .bf16) (z : Fin 1) (r : Fin 512) (k : Fin 2048) :
    matmul dot_S1x512x64_S1x2048x64_S1x512x2048_2_2_1_1_0_0 none a b (constant (F := Ideal) S1x512x2048 .f32 0x00000000#32) (ix3 z r k)
      = ∑ d : Fin 64, a (ix3 z r d) * b (ix3 z k d) := by
  simp only [matmul]
  rw [Ideal.matmul_constant_zero_apply, ← Equiv.sum_comp (contrEquiv1 dot_S1x512x64_S1x2048x64_S1x512x2048_2_2_1_1_0_0 64 rfl rfl).symm]
  refine Finset.sum_congr rfl fun d _ => ?_
  have hk := contrEquiv1_symm_val dot_S1x512x64_S1x2048x64_S1x512x2048_2_2_1_1_0_0 64 rfl rfl d
  have el : dot_S1x512x64_S1x2048x64_S1x512x2048_2_2_1_1_0_0.lhsIdx (ix3 z r k) ((contrEquiv1 dot_S1x512x64_S1x2048x64_S1x512x2048_2_2_1_1_0_0 64 rfl rfl).symm d) = ix3 z r d := funext fun ax => Fin.ext (by
    match ax with
    | ⟨0, _⟩ => exact qk_l0 _ _
    | ⟨1, _⟩ => exact qk_l1 _ _
    | ⟨2, _⟩ => exact (qk_l2 _ _).trans hk)
  have er : dot_S1x512x64_S1x2048x64_S1x512x2048_2_2_1_1_0_0.rhsIdx (ix3 z r k) ((contrEquiv1 dot_S1x512x64_S1x2048x64_S1x512x2048_2_2_1_1_0_0 64 rfl rfl).symm d) = ix3 z k d := funext fun ax => Fin.ext (by
    match ax with
    | ⟨0, _⟩ => exact qk_r0 _ _
    | ⟨1, _⟩ => exact qk_r1 _ _
    | ⟨2, _⟩ => exact (qk_r2 _ _).trans hk)
  rw [el, er]

/-- Weighted values: the product of the weights with the value block, contracted over the 2048 keys, into a zero
    accumulator, is the sum over the keys. -/
theorem weighted_apply (p : FVec Ideal S1x512x2048 .bf16) (v : FVec Ideal S1x2048x64 .bf16) (z : Fin 1) (r : Fin 512) (d : Fin 64) :
    matmul dot_S1x512x2048_S1x2048x64_S1x512x64_2_1_1_2_0_0 none p v (constant (F := Ideal) S1x512x64 .f32 0x00000000#32) (ix3 z r d)
      = ∑ k : Fin 2048, p (ix3 z r k) * v (ix3 z k d) := by
  simp only [matmul]
  rw [Ideal.matmul_constant_zero_apply, ← Equiv.sum_comp (contrEquiv1 dot_S1x512x2048_S1x2048x64_S1x512x64_2_1_1_2_0_0 2048 rfl rfl).symm]
  refine Finset.sum_congr rfl fun k _ => ?_
  have hk := contrEquiv1_symm_val dot_S1x512x2048_S1x2048x64_S1x512x64_2_1_1_2_0_0 2048 rfl rfl k
  have el : dot_S1x512x2048_S1x2048x64_S1x512x64_2_1_1_2_0_0.lhsIdx (ix3 z r d) ((contrEquiv1 dot_S1x512x2048_S1x2048x64_S1x512x64_2_1_1_2_0_0 2048 rfl rfl).symm k) = ix3 z r k := funext fun ax => Fin.ext (by
    match ax with
    | ⟨0, _⟩ => exact pv_l0 _ _
    | ⟨1, _⟩ => exact pv_l1 _ _
    | ⟨2, _⟩ => exact (pv_l2 _ _).trans hk)
  have er : dot_S1x512x2048_S1x2048x64_S1x512x64_2_1_1_2_0_0.rhsIdx (ix3 z r d) ((contrEquiv1 dot_S1x512x2048_S1x2048x64_S1x512x64_2_1_1_2_0_0 2048 rfl rfl).symm k) = ix3 z k d := funext fun ax => Fin.ext (by
    match ax with
    | ⟨0, _⟩ => exact pv_r0 _ _
    | ⟨1, _⟩ => exact (pv_r1 _ _).trans hk
    | ⟨2, _⟩ => exact pv_r2 _ _)
  rw [el, er]

/-- The row sum over the key axis, at row (z, r). -/
theorem rowsum_apply (e : FVec Ideal S1x512x2048 .f32) (z : Fin 1) (r : Fin 512) :
    multiReduction (F := Ideal) .add [2] S1x512 e 0x00000000#32 reduces_S1x512x2048_S1x512 (.inl rfl) rfl (ix2 z r)
      = ∑ k : Fin 2048, e (ix3 z r k) := by
  refine (Ideal.multiReduction_add_single e _ reduces_S1x512x2048_S1x512 _ _ (ix2 z r)).trans ?_
  exact Finset.sum_congr rfl fun k _ => congrArg e (funext fun ax => Fin.ext (by
    match ax with | ⟨0, _⟩ => rfl | ⟨1, _⟩ => rfl | ⟨2, _⟩ => rfl))

/-- The row maximum over the key axis, at row (z, r): the fold of `max` from the accumulator's pattern. -/
theorem rowmax_apply (s : FVec Ideal S1x512x2048 .f32) (z : Fin 1) (r : Fin 512) :
    multiReduction (F := Ideal) .maximumf [2] S1x512 s 0xFF800000#32 reduces_S1x512x2048_S1x512 (.inl rfl) rfl (ix2 z r)
      = (Finset.univ : Finset (Fin 2048)).fold max (Ideal.ofBits .f32 0xFF800000#32) (fun k => s (ix3 z r k)) := by
  refine (Ideal.multiReduction_maximumf_single s _ reduces_S1x512x2048_S1x512 _ _ (ix2 z r)).trans ?_
  exact congrArg (fun f : Fin 2048 → EReal => (Finset.univ : Finset (Fin 2048)).fold max (Ideal.ofBits .f32 0xFF800000#32) f)
    (funext fun k => congrArg s (funext fun ax => Fin.ext (by
      match ax with | ⟨0, _⟩ => rfl | ⟨1, _⟩ => rfl | ⟨2, _⟩ => rfl)))

/-- A row statistic [1, 512] recast as a column [1, 512, 1], read at (z, r, o). -/
theorem column_apply (x : FVec Ideal S1x512 .f32) (z : Fin 1) (r : Fin 512) (o : Fin 1) :
    shapeCast S1x512x1 x shapeCasts_S1x512_S1x512x1 (ix3 z r o) = x (ix2 z r) := by
  refine shapeCast_apply x _ (ix3 z r o) (ix2 z r) ?_
  rw [Shape.rowMajor_val_two, Shape.rowMajor_val_three]
  show z.val * 512 + r.val = (z.val * 512 + r.val) * 1 + o.val
  have := o.isLt; omega

/-- The column broadcast along the keys: [1, 512, 1] → [1, 512, 2048], read at (z, r, k). -/
theorem along_keys_apply (x : FVec Ideal S1x512x1 .f32) (z : Fin 1) (r : Fin 512) (k : Fin 2048) :
    broadcastTo S1x512x2048 x broadcasts_S1x512x1_S1x512x2048 (ix3 z r k) = x (ix3 z r 0) := by
  refine broadcastTo_apply x _ (ix3 z r k) (ix3 z r 0) fun ax => ?_
  match ax with
  | ⟨0, _⟩ => show z.val = if (1 : Nat) = 1 then 0 else z.val; rw [if_pos rfl]; have := z.isLt; omega
  | ⟨1, _⟩ => show r.val = if (512 : Nat) = 1 then 0 else r.val; rw [if_neg (by decide)]
  | ⟨2, _⟩ => show 0 = if (1 : Nat) = 1 then 0 else k.val; rw [if_pos rfl]

/-- The column broadcast along the features: [1, 512, 1] → [1, 512, 64], read at (z, r, d). -/
theorem along_features_apply (x : FVec Ideal S1x512x1 .f32) (z : Fin 1) (r : Fin 512) (d : Fin 64) :
    broadcastTo S1x512x64 x broadcasts_S1x512x1_S1x512x64 (ix3 z r d) = x (ix3 z r 0) := by
  refine broadcastTo_apply x _ (ix3 z r d) (ix3 z r 0) fun ax => ?_
  match ax with
  | ⟨0, _⟩ => show z.val = if (1 : Nat) = 1 then 0 else z.val; rw [if_pos rfl]; have := z.isLt; omega
  | ⟨1, _⟩ => show r.val = if (512 : Nat) = 1 then 0 else r.val; rw [if_neg (by decide)]
  | ⟨2, _⟩ => show 0 = if (1 : Nat) = 1 then 0 else d.val; rw [if_pos rfl]

/-- The named constant of the scale denotes `scale`. -/
theorem named_scale : Named.named (F := Ideal) κ "recip_div" (φ := .f32) 0x3D13CD3A#32 = scale :=
  IdealRules.named_const.ideal_named_scalar _ _ _ _ rfl

/-- The scaled scores at (z, r, k): the product read as a sum over the features, times the named scale. -/
theorem scaled_apply (a : FVec Ideal S1x512x64 .bf16) (b : FVec Ideal S1x2048x64 .bf16) (z : Fin 1) (r : Fin 512) (k : Fin 2048) :
    mulf (matmul dot_S1x512x64_S1x2048x64_S1x512x2048_2_2_1_1_0_0 none (shapeCast S1x512x64 a Facts₀.shapeCasts_S1x512x64_S1x512x64) (shapeCast S1x2048x64 b Facts₀.shapeCasts_S1x2048x64_S1x2048x64)
          (constant (F := Ideal) S1x512x2048 .f32 0x00000000#32))
        (broadcast S1x512x2048 (Named.named (F := Ideal) κ "recip_div" (φ := .f32) 0x3D13CD3A#32)) (ix3 z r k)
      = (∑ d : Fin 64, a (ix3 z r d) * b (ix3 z k d)) * scale := by
  refine (mulf_apply _ _ _).trans ?_
  rw [scores_apply, broadcast_apply, named_scale, shapeCast_self, shapeCast_self]

/-- The weights at (z, r, k), for any array of scores `s`: `exp` of the score less the row's folded maximum. -/
theorem weights_apply (s : FVec Ideal S1x512x2048 .f32) (z : Fin 1) (r : Fin 512) (k : Fin 2048) :
    exp (subf s (broadcastTo S1x512x2048 (shapeCast S1x512x1
          (multiReduction (F := Ideal) .maximumf [2] S1x512 s 0xFF800000#32 Facts₀.reduces_S1x512x2048_S1x512 (.inl rfl) rfl)
          Facts₀.shapeCasts_S1x512_S1x512x1) Facts₀.broadcasts_S1x512x1_S1x512x2048)) (ix3 z r k)
      = Ideal.exp (s (ix3 z r k) - (Finset.univ : Finset (Fin 2048)).fold max (Ideal.ofBits .f32 0xFF800000#32) (fun k' => s (ix3 z r k'))) := by
  show Ideal.exp (s (ix3 z r k) - broadcastTo S1x512x2048 _ Facts₀.broadcasts_S1x512x1_S1x512x2048 (ix3 z r k)) = _
  rw [along_keys_apply, column_apply, rowmax_apply]

/-- THE BODY'S ELEMENT at (z, r, d): the attention row normalised last, over the scaled scores of the block's row r
    against every key row and the value rows' column d. -/
theorem payload_apply (a : FVec Ideal S1x512x64 .bf16) (b v : FVec Ideal S1x2048x64 .bf16) (z : Fin 1) (r : Fin 512) (d : Fin 64) :
    Cert.KernelIdeal.Gen.k0_pay1 (F := Ideal) a b v (ix3 z r d)
      = rowLast (fun k : Fin 2048 => (∑ d' : Fin 64, a (ix3 z r d') * b (ix3 z k d')) * scale) (fun k => v (ix3 z k d)) := by
  unfold Cert.KernelIdeal.Gen.k0_pay1 rowLast
  dsimp only
  refine (divf_apply _ _ _).trans (congrArg₂ Ideal.div ?_ ?_)
  · refine (weighted_apply _ _ z r d).trans (Finset.sum_congr rfl fun k _ => ?_)
    refine congrArg₂ (· * ·) ?_ (congrFun (shapeCast_self v _) _)
    refine (weights_apply _ z r k).trans ?_
    simp only [scaled_apply]
  · refine (along_features_apply _ z r d).trans ((column_apply _ z r 0).trans ((rowsum_apply _ z r).trans (Finset.sum_congr rfl fun k _ => ?_)))
    refine (weights_apply _ z r k).trans ?_
    simp only [scaled_apply]

end Cert.Attn.Body

end
-- ==== Proof.KernelArray.lean ====
/-
  From the body's blocks to the whole output array.

  The grid has 48 × 4 points. Point (g, j) reads rows [512 j, 512 j + 512) of slab g of the query array, the whole of
  slab g of the key and value arrays, and writes rows [512 j, 512 j + 512) of slab g of the output. So the element
  (g, q, d) of the output depends on row q of the query slab g and on every row of the key and value slabs g: it is the
  attention row normalised last, `attn48` below. The index maps' relations are decided once over the 192 points; the
  output's blocks tile the array, the point covering row q of slab g being (g, q / 512).
-/
import proofs.«132813_j51436528337629_2_alg».proof.Proof.Gen.KernelIdeal.Frame
import proofs.«132813_j51436528337629_2_alg».proof.Proof.KernelRow
import Idealize.ShloMosaic.Lib.Pipeline.Value
import Idealize.ShloMosaic.Lib.ValueIdx

set_option maxRecDepth 16384

noncomputable section

namespace Cert.Attn.Kernel

open Idealize.ShloMosaic Idealize.ShloMosaic.TcCoe Idealize.ShloMosaic.ValueIdx Idealize.SL.Sem
open Cert.KernelIdeal Cert.KernelIdeal.Gen Cert.Attn
open Idealize.ShloMosaic.Pipeline (Dat Cfg Window)

variable (m : (ℓ : Loc nD τ sig) → Buf (Elt Ideal) ℓ) (ρ : Dev nD → PrngReg)

/-- Attention over three arrays of 48 slabs of 2048 rows of 64 features: element (g, q, d) is the row normalised last
    of the scaled scores of query row q against every key row of slab g, over column d of the value rows of slab g. -/
def attn48 (A B C : S48x2048x64.Idx → EReal) : S48x2048x64.Idx → EReal := fun i =>
  rowLast (fun k : Fin 2048 => (∑ d : Fin 64, A (ix3 (i 0) (i 1) d) * B (ix3 (i 0) k d)) * scale) (fun k => C (ix3 (i 0) k (i 2)))

theorem offsets_zero : (![0, 0, 0] : Fin 3 → Nat) = fun _ => 0 := funext fun a => by fin_cases a <;> rfl

/-- The printed index maps, decided over the grid: every input window sits on the output's slab; the query window
    also on the output's row block; the key and value windows take their slab whole; no window moves along the features. -/
theorem index_facts : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) < 48 ∧ win0_3.index t (1 : Fin 3) < 4 :=
  (by decide +kernel : ∀ t : Fin grid0.N, _)

/-- Every (slab, row block) is some point's. -/
theorem index_onto : ∀ (g : Fin 48) (j : Fin 4), ∃ t : Fin cfg0.N, win0_3.index t = ![g.val, j.val, 0] :=
  (by decide +kernel : ∀ (g : Fin 48) (j : Fin 4), ∃ t : Fin grid0.N, win0_3.index t = ![g.val, j.val, 0])

/-- WHAT POINT `t` WRITES BACK is block `t` of `attn48` of the three arrays as the region finds them. -/
theorem flushed_eq (c : Dev nD) (t : Fin cfg0.N) :
    (dats m 0 c).flushed 3 t
      = ((cfg0.win 3).blk t).view.read (Elt Ideal) (attn48 (V m c main_v1) (V m c main_v3) (V m c main_v6)) := by
  show (cfg0.win 3).cut (grid0.coords t) ((dats m 0 c).after 3 t) = _
  rw [after0_3]
  unfold out0_3
  rw [View.canon_unit_zero offsets_zero]
  simp only [View.ld_unit_zero (S := S1x512x64) offsets_zero, View.ld_unit_zero (S := S1x2048x64) offsets_zero]
  have key : ∀ y : S1x512x64.Idx,
      k0_pay1 (iblk m c 0 t) (iblk m c 1 t) (iblk m c 2 t) y
        = attn48 (V m c main_v1) (V m c main_v3) (V m c main_v6) (((cfg0.win 3).blk t).view.emb y) := by
    intro y
    obtain ⟨z, r, d, rfl⟩ : ∃ (z : Fin 1) (r : Fin 512) (d : Fin 64), y = ix3 z r d := ⟨y 0, y 1, y 2, eq_ix3 y⟩
    refine (Body.payload_apply (iblk m c 0 t) (iblk m c 1 t) (iblk m c 2 t) z r d).trans ?_
    obtain ⟨e00, e01, e02, e10, e11, e12, e20, e21, e22, e32, b0, b1⟩ := index_facts t
    have hA : ∀ d' : Fin 64, iblk m c 0 t (ix3 z r d')
        = V m c main_v1 (ix3 (((cfg0.win 3).blk t).view.emb (ix3 z r d) 0) (((cfg0.win 3).blk t).view.emb (ix3 z r d) 1) d') := fun d' => by
      show V m c main_v1 (((cfg0.win 0).blk t).view.emb (ix3 z r d')) = V m c main_v1 _
      refine congrArg _ (funext fun a => Fin.ext ?_)
      match a with
      | ⟨0, _⟩ => show win0_0.index t (0 : Fin 3) * 1 + 1 * z.val = win0_3.index t (0 : Fin 3) * 1 + 1 * z.val; omega
      | ⟨1, _⟩ => show win0_0.index t (1 : Fin 3) * 512 + 1 * r.val = win0_3.index t (1 : Fin 3) * 512 + 1 * r.val; omega
      | ⟨2, _⟩ => show win0_0.index t (2 : Fin 3) * 64 + 1 * d'.val = d'.val; omega
    have hB : ∀ (k : Fin 2048) (d' : Fin 64), iblk m c 1 t (ix3 z k d')
        = V m c main_v3 (ix3 (((cfg0.win 3).blk t).view.emb (ix3 z r d) 0) k d') := fun k d' => by
      show V m c main_v3 (((cfg0.win 1).blk t).view.emb (ix3 z k d')) = V m c main_v3 _
      refine congrArg _ (funext fun a => Fin.ext ?_)
      match a with
      | ⟨0, _⟩ => show win0_1.index t (0 : Fin 3) * 1 + 1 * z.val = win0_3.index t (0 : Fin 3) * 1 + 1 * z.val; omega
      | ⟨1, _⟩ => show win0_1.index t (1 : Fin 3) * 2048 + 1 * k.val = k.val; omega
      | ⟨2, _⟩ => show win0_1.index t (2 : Fin 3) * 64 + 1 * d'.val = d'.val; omega
    have hC : ∀ k : Fin 2048, iblk m c 2 t (ix3 z k d)
        = V m c main_v6 (ix3 (((cfg0.win 3).blk t).view.emb (ix3 z r d) 0) k (((cfg0.win 3).blk t).view.emb (ix3 z r d) 2)) := fun k => by
      show V m c main_v6 (((cfg0.win 2).blk t).view.emb (ix3 z k d)) = V m c main_v6 _
      refine congrArg _ (funext fun a => Fin.ext ?_)
      match a with
      | ⟨0, _⟩ => show win0_2.index t (0 : Fin 3) * 1 + 1 * z.val = win0_3.index t (0 : Fin 3) * 1 + 1 * z.val; omega
      | ⟨1, _⟩ => show win0_2.index t (1 : Fin 3) * 2048 + 1 * k.val = k.val; omega
      | ⟨2, _⟩ => show win0_2.index t (2 : Fin 3) * 64 + 1 * d.val = win0_3.index t (2 : Fin 3) * 64 + 1 * d.val; omega
    unfold attn48
    simp only [hA, hB, hC]
  funext y
  exact key y

/-- An index of the output array is in point `t`'s block iff each coordinate is in the block's range on its axis. -/
theorem mem_blk (t : Fin cfg0.N) (i : S48x2048x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v7).slice (win0_3.rect t)).set ↔ _
  rw [View.set_slice_whole, Rect.mem_set_unit]
  exact Iff.rfl

/-- The output's blocks tile the array: element (g, q, d) is in the block of the point on slab g and row block q / 512. -/
theorem cover (i : S48x2048x64.Idx) : ∃ t : Fin cfg0.N, (cfg0.win 3).flush t = true ∧ i ∈ ((cfg0.win 3).blk t).view.set := by
  have hi0 : (i 0).val < 48 := (i 0).isLt
  have hi1 : (i 1).val < 2048 := (i 1).isLt
  have hi2 : (i 2).val < 64 := (i 2).isLt
  obtain ⟨t, ht⟩ := index_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- THE OUTPUT ARRAY after the run is `attn48` of the three arrays as the region finds them. -/
theorem final (c : Dev nD) :
    (dats m 0 c).arrAt 3 cfg0.N = attn48 (V m c main_v1) (V m c main_v3) (V m c main_v6) :=
  (dats m 0 c).arrAt_eq_of_cover 3 _ (fun t _ => flushed_eq m c t) cover

end Cert.Attn.Kernel

end
-- ==== Proof.KernelValue.lean ====
/-
  The idealized kernel program as a whole: what its result array holds, element by element, as a function of the three
  argument arrays.

  Before the region the host reshapes queries and keys from [4, 12, 2048, 64] to 48 slabs — (batch b, head h) becomes
  slab 12 b + h — and does the same to the values after exchanging their key and head axes; the changes of float format
  are the identity. After the region the host reshapes the 48 output slabs back to [4, 12, 2048, 64]. A reshape keeps
  the row-major position, so slab 12 b + h, row q, feature d is element (b, h, q, d) on both sides. Hence the result at
  (b, h, q, d) is the attention row normalised last over Q[b, h, q, ·], K[b, h, ·, ·] and V[b, ·, h, d].
-/
import proofs.«132813_j51436528337629_2_alg».proof.Proof.KernelArray
import Idealize.ShloMosaic.Lib.StableHlo.Run

set_option maxRecDepth 16384

noncomputable section

namespace Cert.Attn.Kernel

open Idealize.ShloMosaic Idealize.ShloMosaic.TcCoe Idealize.ShloMosaic.ValueIdx Idealize.SL.Sem Idealize.ShloMosaic.StableHlo
open Cert.KernelIdeal Cert.KernelIdeal.Gen Cert.Attn
open Idealize.ShloMosaic.Pipeline (Dat Cfg Window)

variable (m : (ℓ : Loc nD τ sig) → Buf (Elt Ideal) ℓ) (ρ : Dev nD → PrngReg)

/-- The three argument arrays, as arrays of extended reals. -/
abbrev argQ (c : Dev nD) : S4x12x2048x64.Idx → EReal := m ((c : Thread nD τ).loc main_arg0)
abbrev argK (c : Dev nD) : S4x12x2048x64.Idx → EReal := m ((c : Thread nD τ).loc main_arg1)
abbrev argV (c : Dev nD) : S4x2048x12x64.Idx → EReal := m ((c : Thread nD τ).loc main_arg2)
/-- The three arrays the region finds, as arrays of extended reals. -/
abbrev foundQ (c : Dev nD) : S48x2048x64.Idx → EReal := V m c main_v1
abbrev foundK (c : Dev nD) : S48x2048x64.Idx → EReal := V m c main_v3
abbrev foundV (c : Dev nD) : S48x2048x64.Idx → EReal := V m c main_v6

/-- The query array as the region finds it: the argument reshaped to slabs. -/
theorem found_q (c : Dev nD) : @Eq (FVec Ideal S48x2048x64 .bf16) (V m c main_v1)
    (truncf .bf16 (shapeCast S48x2048x64 (m ((c : Thread nD τ).loc main_arg0)) shapeCasts_S4x12x2048x64_S48x2048x64) bitsLt_bf16_f32) := by
  show StableHlo.after hostOps0 (fun b => m (c, b)) (Proc.devRef .tc main_v1) = _
  after_results
  rfl

/-- The key array as the region finds it: the argument reshaped to slabs. -/
theorem found_k (c : Dev nD) : @Eq (FVec Ideal S48x2048x64 .bf16) (V m c main_v3)
    (truncf .bf16 (shapeCast S48x2048x64 (m ((c : Thread nD τ).loc main_arg1)) shapeCasts_S4x12x2048x64_S48x2048x64) bitsLt_bf16_f32) := by
  show StableHlo.after hostOps0 (fun b => m (c, b)) (Proc.devRef .tc main_v3) = _
  after_results
  rfl

/-- The value array as the region finds it: the argument with keys and heads exchanged, then reshaped to slabs. -/
theorem found_v (c : Dev nD) : @Eq (FVec Ideal S48x2048x64 .bf16) (V m c main_v6)
    (truncf .bf16 (shapeCast S48x2048x64 (transpose S4x12x2048x64 [0, 2, 1, 3] (m ((c : Thread nD τ).loc main_arg2)) transposes_S4x2048x12x64_S4x12x2048x64_0_2_1_3) shapeCasts_S4x12x2048x64_S48x2048x64) bitsLt_bf16_f32) := by
  show StableHlo.after hostOps0 (fun b => m (c, b)) (Proc.devRef .tc main_v6) = _
  after_results
  rfl

/-- The program's result after the host tail: the output array of the region, reshaped back. -/
theorem tail_eq (c : Dev nD) : @Eq (FVec Ideal S4x12x2048x64 .f32) (Pipeline.afterTail₀ cfgs (dats m) 0 (V0 m) [hostOps1] c main_v8)
    (shapeCast S4x12x2048x64 ((dats m 0 c).arrAt 3 cfg0.N) shapeCasts_S48x2048x64_S4x12x2048x64) := by
  unfold Pipeline.afterTail₀
  show StableHlo.after hostOps1 _ (Proc.devRef .tc main_v8) = _
  after_results
  funext i
  exact congrFun (congrArg (fun x : FVec Ideal S48x2048x64 .f32 => shapeCast S4x12x2048x64 x shapeCasts_S48x2048x64_S4x12x2048x64)
    (Pipeline.withArrays_arr spec0 launch0.win.arr_inj c _ _ 3)) i

/-- The slab of (batch b, head h). -/
def slab (b : Fin 4) (h : Fin 12) : Fin 48 := ⟨b.val * 12 + h.val, by have := b.isLt; have := h.isLt; omega⟩

theorem found_q_apply (c : Dev nD) (b : Fin 4) (h : Fin 12) (q : Fin 2048) (d : Fin 64) :
    foundQ m c (ix3 (slab b h) q d) = argQ m c (ix4 b h q d) := by
  refine (congrFun (found_q m c) _).trans ?_
  show shapeCast S48x2048x64 (m ((c : Thread nD τ).loc main_arg0)) shapeCasts_S4x12x2048x64_S48x2048x64 (ix3 (slab b h) q d) = _
  refine shapeCast_apply _ _ (ix3 (slab b h) q d) (ix4 b h q d) ?_
  rw [Shape.rowMajor_val_four, Shape.rowMajor_val_three]
  rfl

theorem found_k_apply (c : Dev nD) (b : Fin 4) (h : Fin 12) (k : Fin 2048) (d : Fin 64) :
    foundK m c (ix3 (slab b h) k d) = argK m c (ix4 b h k d) := by
  refine (congrFun (found_k m c) _).trans ?_
  show shapeCast S48x2048x64 (m ((c : Thread nD τ).loc main_arg1)) shapeCasts_S4x12x2048x64_S48x2048x64 (ix3 (slab b h) k d) = _
  refine shapeCast_apply _ _ (ix3 (slab b h) k d) (ix4 b h k d) ?_
  rw [Shape.rowMajor_val_four, Shape.rowMajor_val_three]
  rfl

theorem found_v_apply (c : Dev nD) (b : Fin 4) (h : Fin 12) (k : Fin 2048) (d : Fin 64) :
    foundV m c (ix3 (slab b h) k d) = argV m c (ix4 b k h d) := by
  refine (congrFun (found_v m c) _).trans ?_
  show shapeCast S48x2048x64 (transpose S4x12x2048x64 [0, 2, 1, 3] (m ((c : Thread nD τ).loc main_arg2)) transposes_S4x2048x12x64_S4x12x2048x64_0_2_1_3)
      shapeCasts_S4x12x2048x64_S48x2048x64 (ix3 (slab b h) k d) = _
  refine (shapeCast_apply _ _ (ix3 (slab b h) k d) (ix4 b h k d) ?_).trans ?_
  · rw [Shape.rowMajor_val_four, Shape.rowMajor_val_three]
    rfl
  · exact transpose_apply [0, 2, 1, 3] _ _ (ix4 b h k d) (ix4 b k h d) (fun a => match a with
      | ⟨0, _⟩ => rfl | ⟨1, _⟩ => rfl | ⟨2, _⟩ => rfl | ⟨3, _⟩ => rfl)

/-- THE KERNEL PROGRAM'S RESULT at (b, h, q, d): the attention row normalised last over the argument arrays. -/
theorem result_apply (c : Dev nD) (b : Fin 4) (h : Fin 12) (q : Fin 2048) (d : Fin 64) :
    Pipeline.afterTail₀ cfgs (dats m) 0 (V0 m) [hostOps1] c main_v8 (ix4 b h q d)
      = rowLast (fun k : Fin 2048 => (∑ d' : Fin 64, argQ m c (ix4 b h q d') * argK m c (ix4 b h k d')) * scale)
          (fun k => argV m c (ix4 b k h d)) := by
  refine (congrFun (tail_eq m c) _).trans ?_
  refine (shapeCast_apply _ _ (ix4 b h q d) (ix3 (slab b h) q d) ?_).trans ?_
  · rw [Shape.rowMajor_val_three, Shape.rowMajor_val_four]
    rfl
  refine (congrFun (final m c) _).trans ?_
  show rowLast (fun k : Fin 2048 => (∑ d' : Fin 64, foundQ m c (ix3 (slab b h) q d') * foundK m c (ix3 (slab b h) k d')) * scale)
      (fun k => foundV m c (ix3 (slab b h) k d)) = _
  refine congrArg₂ rowLast (funext fun k => ?_) (funext fun k => found_v_apply m c b h k d)
  refine congrArg (· * scale) (Finset.sum_congr rfl fun d' _ => ?_)
  exact congrArg₂ (· * ·) (found_q_apply m c b h q d') (found_k_apply m c b h k d')

/-- The frame run re-posted: the result array named, the arguments unchanged. -/
theorem run : θ_run defs (onTc (τ := τ) (main (F := Ideal))) ⟨m, fun _ => 0, ρ⟩ (fun r => ∀ c : Dev nD,
      r.2.mem ((c.tc : Thread nD τ).loc main_v8) = Pipeline.afterTail₀ cfgs (dats m) 0 (V0 m) [hostOps1] c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2 main_v8 (Pipeline.mem_restRefs_of main_v8 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Attn.Kernel

end
-- ==== Proof.RefRow.lean ====
/-
  The reference's result, read at one element.

  At (batch b, head h, query q, feature d) the reference returns the attention row normalised first: scores
  `(∑ d', Q[b,h,q,d'] · K[b,h,k,d']) / D`, the row maximum (folded from −∞, then once more compared with −∞), weights
  `exp (score − maximum)`, each divided by `0 + ∑` of the weights, and the sum over the keys of the normalised weight
  times `V[b,k,h,d]` — the values are stored keys-before-heads and read through a transposition. Every stage is read at
  explicit coordinates through the generated index-by-index lemmas; the maximum, which those lemmas leave unread, is
  read as a fold over the key axis.
-/
import proofs.«132813_j51436528337629_2_alg».proof.Proof.Gen.ReferenceIdeal.Read
import proofs.«132813_j51436528337629_2_alg».proof.Proof.Row
import Idealize.ShloMosaic.Lib.ValueIdx
import Idealize.ShloMosaic.PureOps.Ideal.Laws

set_option maxRecDepth 16384

noncomputable section

namespace Cert.Attn.Ref

open Idealize.ShloMosaic Idealize.ShloMosaic.ValueIdx Cert.ReferenceIdeal Cert.ReferenceIdeal.Read Cert.Attn

variable [Cert.ReferenceIdeal.Facts]
open Cert.ReferenceIdeal.Facts₀ Cert.ReferenceIdeal.Facts

variable (Q K : S4x12x2048x64.Idx → EReal) (W : S4x2048x12x64.Idx → EReal)

/-- The raw score of query q against key k. -/
def raw (b : Fin 4) (h : Fin 12) (q k : Fin 2048) : EReal := ∑ d : Fin 64, Q (ix4 b h q d) * K (ix4 b h k d)

/-- The scaled score: the raw score divided by the divisor's f32 value. -/
theorem score_apply (b : Fin 4) (h : Fin 12) (q k : Fin 2048) :
    val_main_v2 (F := Ideal) Q K (ix4 b h q k) = Ideal.div (raw Q K b h q k) (Ideal.ofBits .f32 0x41DDB3D7#32) := by
  have el : ∀ d : Fin 64, lidx_main_v0 (ix4 b h q k) d = ix4 b h q d := fun d => funext fun ax => Fin.ext (by
    match ax with | ⟨0, _⟩ => rfl | ⟨1, _⟩ => rfl | ⟨2, _⟩ => rfl | ⟨3, _⟩ => rfl)
  have er : ∀ d : Fin 64, ridx_main_v0 (ix4 b h q k) d = ix4 b h k d := fun d => funext fun ax => Fin.ext (by
    match ax with | ⟨0, _⟩ => rfl | ⟨1, _⟩ => rfl | ⟨2, _⟩ => rfl | ⟨3, _⟩ => rfl)
  rw [val_main_v2_apply, val_main_v0_apply, val_main_v1_apply, val_main_cst_apply]
  simp only [el, er]
  rfl

/-- The row maximum at (b, h, q). -/
theorem rowmax_apply (b : Fin 4) (h : Fin 12) (q : Fin 2048) :
    val_main_v5 (F := Ideal) Q K (ix3 b h q)
      = max (Ideal.ofBits .f32 0xFF800000#32)
          ((Finset.univ : Finset (Fin 2048)).fold max (Ideal.ofBits .f32 0xFF800000#32) (fun k => val_main_v2 (F := Ideal) Q K (ix4 b h q k))) := by
  rw [val_main_v5_apply, val_main_v4_apply, val_main_cst_1_apply]
  unfold val_main_v3
  have hred : S4x12x2048x2048.Reduces [3] S4x12x2048 := by decide
  rw [Host.reduce_eq_fold_single FloatOps.maximumf _ _ reducesTo_S4x12x2048x2048_S4x12x2048_d3 hred h_S_ (ix3 b h q)]
  refine congrArg (max (Ideal.ofBits .f32 0xFF800000#32)) ?_
  exact congrArg (fun f : Fin 2048 → EReal => (Finset.univ : Finset (Fin 2048)).fold max (Ideal.ofBits .f32 0xFF800000#32) f)
    (funext fun k => congrArg (val_main_v2 (F := Ideal) Q K) (funext fun ax => Fin.ext (by
      match ax with | ⟨0, _⟩ => rfl | ⟨1, _⟩ => rfl | ⟨2, _⟩ => rfl | ⟨3, _⟩ => rfl)))

/-- The weight of key k in row (b, h, q). -/
theorem weight_apply (b : Fin 4) (h : Fin 12) (q k : Fin 2048) :
    val_main_v9 (F := Ideal) Q K (ix4 b h q k)
      = Ideal.exp (val_main_v2 (F := Ideal) Q K (ix4 b h q k) - val_main_v5 (F := Ideal) Q K (ix3 b h q)) := by
  have e : idx_main_v6 (idx_main_v7 (ix4 b h q k)) = ix3 b h q := funext fun ax => Fin.ext (by
    match ax with | ⟨0, _⟩ => rfl | ⟨1, _⟩ => rfl | ⟨2, _⟩ => rfl)
  rw [val_main_v9_apply, val_main_v8_apply, val_main_v7_apply, val_main_v6_apply, e]
  rfl

/-- The normaliser of row (b, h, q). -/
theorem norm_apply (b : Fin 4) (h : Fin 12) (q : Fin 2048) :
    val_main_v10 (F := Ideal) Q K (ix3 b h q)
      = Ideal.ofBits .f32 0x00000000#32 + ∑ k : Fin 2048, val_main_v9 (F := Ideal) Q K (ix4 b h q k) := by
  have e : ∀ k : Fin 2048, idx_main_v10 (ix3 b h q) k = ix4 b h q k := fun k => funext fun ax => Fin.ext (by
    match ax with | ⟨0, _⟩ => rfl | ⟨1, _⟩ => rfl | ⟨2, _⟩ => rfl | ⟨3, _⟩ => rfl)
  rw [val_main_v10_apply]
  simp only [e]
  rfl

/-- The normalised weight of key k in row (b, h, q). -/
theorem prob_apply (b : Fin 4) (h : Fin 12) (q k : Fin 2048) :
    val_main_v13 (F := Ideal) Q K (ix4 b h q k)
      = Ideal.div (val_main_v9 (F := Ideal) Q K (ix4 b h q k)) (val_main_v10 (F := Ideal) Q K (ix3 b h q)) := by
  have e : idx_main_v11 (idx_main_v12 (ix4 b h q k)) = ix3 b h q := funext fun ax => Fin.ext (by
    match ax with | ⟨0, _⟩ => rfl | ⟨1, _⟩ => rfl | ⟨2, _⟩ => rfl)
  rw [val_main_v13_apply, val_main_v12_apply, val_main_v11_apply, e]
  rfl

/-- THE REFERENCE'S ELEMENT at (b, h, q, d) is the row normalised first, over the scaled scores of row (b, h, q)
    and the values `V[b, ·, h, d]`. -/
theorem result_apply (b : Fin 4) (h : Fin 12) (q : Fin 2048) (d : Fin 64) :
    val_main_v15 (F := Ideal) Q K W (ix4 b h q d)
      = rowFirst (fun k => Ideal.div (raw Q K b h q k) (Ideal.ofBits .f32 0x41DDB3D7#32)) (fun k => W (ix4 b k h d)) := by
  have el : ∀ k : Fin 2048, lidx_main_v15 (ix4 b h q d) k = ix4 b h q k := fun k => funext fun ax => Fin.ext (by
    match ax with | ⟨0, _⟩ => rfl | ⟨1, _⟩ => rfl | ⟨2, _⟩ => rfl | ⟨3, _⟩ => rfl)
  have er : ∀ k : Fin 2048, idx_main_v14 (ridx_main_v15 (ix4 b h q d) k) = ix4 b k h d := fun k => funext fun ax => Fin.ext (by
    match ax with | ⟨0, _⟩ => rfl | ⟨1, _⟩ => rfl | ⟨2, _⟩ => rfl | ⟨3, _⟩ => rfl)
  rw [val_main_v15_apply]
  unfold rowFirst
  refine Finset.sum_congr rfl fun k _ => ?_
  rw [val_main_v14_apply, el, er, prob_apply, norm_apply, weight_apply, rowmax_apply]
  simp only [weight_apply, rowmax_apply, score_apply]

end Cert.Attn.Ref

end
-- ==== Proof.Finite.lean ====
/-
  The precondition read back: when `finite_inputs` evaluates to 1, every entry of the three argument arrays is a
  real number. Each `jnp.all (|x| < +∞)` is a reduction by `and` that came out 1, so every compared element was 1;
  on the extended reals `max x (−x) < ⊤` excludes both infinities.
-/
import proofs.«132813_j51436528337629_2_alg».proof.Pre_finite_inputs
import Idealize.ShloMosaic.Lib.ReduceAll
import Idealize.ShloMosaic.Lib.ValueIdx
import Idealize.ShloMosaic.PureOps.Ideal

noncomputable section

namespace Cert.Attn

open Idealize.ShloMosaic Cert.Pre_finite_inputs

instance : Subsingleton S_.Idx := ⟨fun a b => funext fun d => d.elim0⟩

/-- The pattern of +∞. -/
theorem ofBits_pos_inf : Ideal.ofBits .f32 0x7F800000#32 = ⊤ := by simp [Ideal.ofBits, Ideal.ieee]

/-- An extended real whose absolute value compares below +∞ is a real number. -/
theorem real_of_abs_lt (x : EReal) (h : Ideal.cmp .olt (max x (-x)) (Ideal.ofBits .f32 0x7F800000#32) = 1#1) : ∃ r : ℝ, x = (r : EReal) := by
  rw [ofBits_pos_inf] at h
  induction x using EReal.rec with
  | bot => simp [Ideal.cmp] at h
  | coe r => exact ⟨r, rfl⟩
  | top => simp [Ideal.cmp] at h

variable [Facts]

/-- Under the precondition every entry of the three argument arrays is a real number. -/
theorem real_of_pre (a0 a1 : FVec Ideal S4x12x2048x64 .f32) (a2 : FVec Ideal S4x2048x12x64 .f32)
    (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  obtain ⟨h01, hc⟩ := IntOp.andi_eq_one.1 h0
  obtain ⟨ha, hb⟩ := IntOp.andi_eq_one.1 h01
  exact ⟨fun i => real_of_abs_lt _ (Host.reduce_andi_all _ _ _ _ _ ha i),
    fun i => real_of_abs_lt _ (Host.reduce_andi_all _ _ _ _ _ hb i),
    fun i => real_of_abs_lt _ (Host.reduce_andi_all _ _ _ _ _ hc i)⟩

end Cert.Attn

end
-- ==== Proof.Bridge.lean ====
/-
  The two programs' results are one function of the argument arrays.

  Over arrays Q, K, V of extended reals whose queries and keys are real numbers: the reference's element at
  (b, h, q, d) — the row normalised first, scores divided by the divisor — equals the row normalised last with scores
  multiplied by the reciprocal. Every raw score is a finite sum of products of reals, hence real, which is all the row
  bridge asks. Then the same for the two programs: the arrays are the launch contents of the three arguments, and the
  precondition makes the queries and keys real.
-/
import proofs.«132813_j51436528337629_2_alg».proof.Proof.KernelValue
import proofs.«132813_j51436528337629_2_alg».proof.Proof.RefRow
import proofs.«132813_j51436528337629_2_alg».proof.Proof.Finite
import proofs.«132813_j51436528337629_2_alg».proof.Proof.Gen.Pre_finite_inputs

set_option maxRecDepth 16384

noncomputable section

namespace Cert.Attn.Bridge

open Idealize.ShloMosaic Idealize.ShloMosaic.ValueIdx Cert.Attn

section Pure
open Cert.ReferenceIdeal

variable (Q K : S4x12x2048x64.Idx → EReal) (W : S4x2048x12x64.Idx → EReal)
  (Qr Kr : S4x12x2048x64.Idx → ℝ) (hQ : ∀ i, Q i = ((Qr i : ℝ) : EReal)) (hK : ∀ i, K i = ((Kr i : ℝ) : EReal))

include hQ hK in
/-- A raw score of real queries and keys is the real sum of products. -/
theorem raw_real (b : Fin 4) (h : Fin 12) (q k : Fin 2048) :
    Ref.raw Q K b h q k = ((∑ d' : Fin 64, Qr (ix4 b h q d') * Kr (ix4 b h k d') : ℝ) : EReal) := by
  unfold Ref.raw
  refine (Finset.sum_congr rfl fun d' _ => ?_).trans (sum_mul_coe_coe _ _)
  rw [hQ, hK]

include hQ hK in
/-- The reference's element is the row normalised last over the same arrays. -/
theorem result_eq [Cert.ReferenceIdeal.Facts] (b : Fin 4) (h : Fin 12) (q : Fin 2048) (d : Fin 64) :
    Cert.ReferenceIdeal.Read.val_main_v15 (F := Ideal) Q K W (ix4 b h q d)
      = rowLast (fun k : Fin 2048 => (∑ d' : Fin 64, Q (ix4 b h q d') * K (ix4 b h k d')) * scale) (fun k => W (ix4 b k h d)) := by
  refine (Ref.result_apply Q K W b h q d).trans ?_
  have hx := raw_real Q K Qr Kr hQ hK b h q
  have e1 : (fun k : Fin 2048 => Ideal.div (Ref.raw Q K b h q k) (Ideal.ofBits .f32 0x41DDB3D7#32))
      = fun k => Ideal.div (((∑ d' : Fin 64, Qr (ix4 b h q d') * Kr (ix4 b h k d') : ℝ) : EReal)) (Ideal.ofBits .f32 0x41DDB3D7#32) :=
    funext fun k => by rw [hx k]
  have e2 : (fun k : Fin 2048 => (∑ d' : Fin 64, Q (ix4 b h q d') * K (ix4 b h k d')) * scale)
      = fun k => (((∑ d' : Fin 64, Qr (ix4 b h q d') * Kr (ix4 b h k d') : ℝ) : EReal)) * scale :=
    funext fun k => congrArg (· * scale) (hx k)
  rw [e1, e2]
  exact (row_bridge (by decide) _ _).symm

end Pure

section Programs
open Cert.KernelIdeal Cert.KernelIdeal.Gen Idealize.ShloMosaic.TcCoe Idealize.SL.Sem

variable (m : (ℓ : Loc nD τ sig) → Buf (Elt Ideal) ℓ)

/-- THE TWO PROGRAMS' RESULTS AGREE: the reference's term of the argument arrays is the array the kernel program's
    run ends with, whenever the precondition holds of those arrays. -/
theorem program_eq (c : Dev nD)
    (hpre : Cert.Pre_finite_inputs.fn (F := Ideal) (Kernel.argQ m c) (Kernel.argK m c) (Kernel.argV m c) = fun _ => 1#1) :
    @Eq (FVec Ideal S4x12x2048x64 .f32)
      (Cert.ReferenceIdeal.Read.val_main_v15 (F := Ideal) (Kernel.argQ m c) (Kernel.argK m c) (Kernel.argV m c))
      (Pipeline.afterTail₀ cfgs (dats m) 0 (V0 m) [hostOps1] c main_v8) := by
  obtain ⟨hQ, hK, -⟩ := real_of_pre _ _ _ hpre
  choose Qr hQr using hQ
  choose Kr hKr using hK
  funext i
  obtain ⟨b, h, q, d, rfl⟩ : ∃ (b : Fin 4) (h : Fin 12) (q : Fin 2048) (d : Fin 64), i = ix4 b h q d := ⟨i 0, i 1, i 2, i 3, eq_ix4 i⟩
  exact (result_eq (Kernel.argQ m c) (Kernel.argK m c) (Kernel.argV m c) Qr Kr hQr hKr b h q d).trans
    (Kernel.result_apply m c b h q d).symm

end Programs

end Cert.Attn.Bridge

end
-- ==== Proof.Claims.lean ====
/-
  The five claims.

  The three frames: the two kernel programs' are the generated frame runs; the reference has no kernel, and its frame is
  its run with the result dropped. `preserves`: the one idealization is the named scale, whose table entry is the
  reciprocal `524288/14529495` of the reference's divisor. `algebraic`: from memories that agree on the three argument
  arrays both programs end, the kernel program at the attention row normalised last with scores scaled by that
  reciprocal, the reference at the row normalised first with scores divided by the divisor; under the precondition the
  queries and keys are real, so every score is real and the row bridge equates the two, element by element.
-/
import proofs.«132813_j51436528337629_2_alg».proof.Defs
import proofs.«132813_j51436528337629_2_alg».proof.Proof.Gen.Kernel.Frame
import proofs.«132813_j51436528337629_2_alg».proof.Proof.Gen.KernelIdeal.Frame
import proofs.«132813_j51436528337629_2_alg».proof.Proof.Gen.ReferenceIdeal.Run
import proofs.«132813_j51436528337629_2_alg».proof.Proof.Gen.ReferenceIdeal.Read
import proofs.«132813_j51436528337629_2_alg».proof.Proof.Gen.Pre_finite_inputs
import proofs.«132813_j51436528337629_2_alg».proof.Proof.KernelValue
import proofs.«132813_j51436528337629_2_alg».proof.Proof.Bridge

set_option maxRecDepth 16384

noncomputable section

namespace Cert.Attn.Claims

open Idealize.ShloMosaic Idealize.ShloMosaic.TcCoe Idealize.ShloMosaic.ValueIdx Idealize.SL.Sem Cert.Attn

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The table gives the scale's name the reciprocal of the divisor, and the printed constant is that value. -/
theorem preserves : Cert.preserves_Kernel_KernelIdeal :=
  IdealRules.named_const.statement Cert.KernelIdeal.κ "recip_div" .f32 0x3D13CD3A#32 ((524288 / 14529495 : ℝ) : EReal) rfl

theorem algebraic : Cert.algebraic_KernelIdeal_ReferenceIdeal := by
  intro m ρ m' ρ' hpre hagree
  refine ⟨fun c => Pipeline.afterTail₀ Cert.KernelIdeal.cfgs (Cert.KernelIdeal.Gen.dats m) 0 (Cert.KernelIdeal.Gen.V0 m)
      [Cert.KernelIdeal.Gen.hostOps1] c Cert.KernelIdeal.main_v8, Cert.Attn.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.Attn.Bridge.program_eq m c (hpre c)

end Cert.Attn.Claims

end
-- ==== Proof.lean ====
/-
  Scaled dot-product attention, one kernel launch per (batch · head, block of 512 queries), against its plain reference:
  the certificate of `Cert.Claim`.

  Both programs compute, for every batch b, head h, query q and feature d,
      out[b,h,q,d] = ∑ k, softmax_k (Q[b,h,q,·] · K[b,h,k,·] / D) · V[b,k,h,d],       D = 14529495 / 2^19,
  the kernel with the scores MULTIPLIED by a constant named the reciprocal of D and the softmax normalised after the
  weighted sum of the values, the reference with the scores DIVIDED by D and the softmax normalised before it.
  The modules: the row law on the extended reals (Proof/RowLaw), the two spellings of a row and their bridge
  (Proof/Row), the precondition read back (Proof/Finite), the kernel body's element (Proof/KernelRow), the output array
  from the body's blocks (Proof/KernelArray), the kernel program around its region (Proof/KernelValue), the reference's
  element (Proof/RefRow), and the five claims (Proof/Claims), assembled here behind the witnesses of the programs' facts.
-/
import proofs.«132813_j51436528337629_2_alg».proof.Defs
import proofs.«132813_j51436528337629_2_alg».proof.Proof.Gen.Kernel
import proofs.«132813_j51436528337629_2_alg».proof.Proof.Gen.Kernel.Skeleton
import proofs.«132813_j51436528337629_2_alg».proof.Proof.Gen.Kernel.Launch
import proofs.«132813_j51436528337629_2_alg».proof.Proof.Gen.Kernel.Points
import proofs.«132813_j51436528337629_2_alg».proof.Proof.Gen.Kernel.Frame
import proofs.«132813_j51436528337629_2_alg».proof.Proof.Gen.KernelIdeal
import proofs.«132813_j51436528337629_2_alg».proof.Proof.Gen.KernelIdeal.Skeleton
import proofs.«132813_j51436528337629_2_alg».proof.Proof.Gen.KernelIdeal.Launch
import proofs.«132813_j51436528337629_2_alg».proof.Proof.Gen.KernelIdeal.Points
import proofs.«132813_j51436528337629_2_alg».proof.Proof.Gen.KernelIdeal.Frame
import proofs.«132813_j51436528337629_2_alg».proof.Proof.Gen.ReferenceIdeal
import proofs.«132813_j51436528337629_2_alg».proof.Proof.Gen.ReferenceIdeal.Run
import proofs.«132813_j51436528337629_2_alg».proof.Proof.Gen.ReferenceIdeal.Read
import proofs.«132813_j51436528337629_2_alg».proof.Proof.Gen.Pre_finite_inputs
import proofs.«132813_j51436528337629_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Attn.Claims.frame_kernel, Cert.Attn.Claims.frame_kernel_ideal, Cert.Attn.Claims.frame_reference,
  Cert.Attn.Claims.preserves, Cert.Attn.Claims.algebraic⟩

end Cert.Proof

end
